-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S64 .f32) (main_arg6 : FVec F S64x10 .f32) (main_arg7 : FVec F S10 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg6
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x500 .f32) (main_arg1 : IVec S2x1600000 32) (main_arg2 : FVec F S500x128 .f32) (main_arg3 : FVec F S128 .f32) (main_arg4 : FVec F S128x64 .f32) (main_arg5 : FVec F S64 .f32) (main_arg6 : FVec F S64x10 .f32) (main_arg7 : FVec F S10 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x500 : Shape := ⟨2, ![4000, 500]⟩
abbrev S4000x128 : Shape := ⟨2, ![4000, 128]⟩
abbrev S1600000x128 : Shape := ⟨2, ![1600000, 128]⟩
abbrev S1x128 : Shape := ⟨2, ![1, 128]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S1x64 : Shape := ⟨2, ![1, 64]⟩
abbrev S1x10 : Shape := ⟨2, ![1, 10]⟩
abbrev S100000x10 : Shape := ⟨2, ![100000, 10]⟩
abbrev S2000x10 : Shape := ⟨2, ![2000, 10]⟩

abbrev nBuf : Space → Nat
  | .hbm => 87
  | .vmem => 26
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000x1, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S1x64, .f32⟩
  | .hbm, ⟨85, _⟩ => ⟨S1x10, .f32⟩
  | .hbm, ⟨86, _⟩ => ⟨S100000x10, .f32⟩
  | .local _ .vmem, ⟨0, _⟩ => ⟨S4000x500, .f32⟩
  | .local _ .vmem, ⟨1, _⟩ => ⟨S4000x500, .f32⟩
  | .local _ .vmem, ⟨2, _⟩ => ⟨S500x128, .f32⟩
  | .local _ .vmem, ⟨3, _⟩ => ⟨S4000x128, .f32⟩
  | .local _ .vmem, ⟨4, _⟩ => ⟨S4000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x1, .f32⟩
  | .local _ .vmem, ⟨20, _⟩ => ⟨S2000x1, .f32⟩
  | .local _ .vmem, ⟨21, _⟩ => ⟨S1x64, .f32⟩
  | .local _ .vmem, ⟨22, _⟩ => ⟨S64x10, .f32⟩
  | .local _ .vmem, ⟨23, _⟩ => ⟨S1x10, .f32⟩
  | .local _ .vmem, ⟨24, _⟩ => ⟨S2000x10, .f32⟩
  | .local _ .vmem, ⟨25, _⟩ => ⟨S2000x10, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x10 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10_S1x10 : S10.ShapeCasts S1x10
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x500_S500x128_S4000x128_1_0_0_1_n_n_wf : DotDims.WF S4000x500 S500x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x10_S2000x10_1_0_0_1_n_n_wf : DotDims.WF S2000x64 S64x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x10.size a ≤ S64x10.size a
  hwx2_4 : ∀ i : grid2.Coords, EltTy.bits .f32 = 32 ∨ (Rect.block (s := S64x10) S64x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x10.size a ≤ S100000x10.size a
  hwx2_6 : ∀ i : grid2.Coords, EltTy.bits .f32 = 32 ∨ (Rect.block (s := S100000x10) S2000x10.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x500_S500x128_S4000x128_1_0_0_1_n_n : DotDims S4000x500 S500x128 S4000x128 where
  lhsContracting := [1]
  rhsContracting := [0]
  lhsNonContracting := [0]
  rhsNonContracting := [1]
  lhsBatch := []
  rhsBatch := []
  wf := dot_S4000x500_S500x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S2000x10.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000x10 : Shape := ⟨2, ![100000, 10]⟩
abbrev S1x10 : Shape := ⟨2, ![1, 10]⟩

abbrev nBuf : Space → Nat
  | .hbm => 144
  | .vmem => 0
  | .smem => 0
  | _ => 0

abbrev hbmTy0_0 (i : Nat) : BufTy := match i % 128 with
  | 0 => ⟨S100000x500, .f32⟩
  | 1 => ⟨S2x1600000, .i32⟩
  | 2 => ⟨S500x128, .f32⟩
  | 3 => ⟨S128, .f32⟩
  | 4 => ⟨S128x64, .f32⟩
  | 5 => ⟨S64, .f32⟩
  | 6 => ⟨S64x10, .f32⟩
  | 7 => ⟨S10, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x64, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x1, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x500, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x10, .f32⟩
  | 13 => ⟨S1x10, .f32⟩
  | 14 => ⟨S100000x10, .f32⟩
  | 15 => ⟨S100000x10, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_c_20 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x500_S500x128_S100000x128_1_0_0_1_n_n_wf : DotDims.WF S100000x500 S500x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x10_S100000x10_1_0_0_1_n_n_wf : DotDims.WF S100000x64 S64x10 S100000x10 [1] [0] [0] [1] [] []

variable [Facts₀]

def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.KernelRun.lean ====
/-
  The three-stage program run from any launch memory, with its result named.

  The program is eight segments in order: three stretches of host operations (edge endpoints, degrees and their
  inverse square roots, the per-edge normalisation), the first matrix product over 25 row tiles, a stretch that gathers,
  scales and scatter-adds the messages of layer one, the second stage over 50 row tiles, the same stretch for layer two,
  and the last stage over 50 row tiles. Every weakly fair execution terminates without a fault; at the end every buffer
  that outlives the stages holds the contents obtained by folding the segments over the launch memory (`Gen.W8`), so the
  result buffer holds that fold's value there and each argument is unchanged.
-/
import proofs.«147297_j32908039422339_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the eight segments, its last thread state read against the final memory: the result buffer at the
    fold's value, the eight arguments as launched. -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.LayerSpec.lean ====
/-
  One graph-convolution layer's dense tail, entry by entry, over the extended reals.

  A layer takes the aggregated neighbour messages `A`, the node features `H` (both [N, D]), the squared inverse
  square-root degree `dq` of every node, a bias `b` over the D features and a weight matrix `W` of shape [D, K].
  At node `r` and feature `k` the activation is the positive part of `(A r k + H r k · dq r) + b k` — the
  neighbours' contribution, the node's own self-loop contribution, the bias, in that association —, and the layer's
  output at `(r, q)` is the sum over `k` of the activation times `W k q`. The last layer adds a second bias
  `bc q` to that sum. Both programs compared in this certificate compute these numbers; stating them once, with
  the per-node and per-feature operands as plain functions of a coordinate, lets a column [N, 1] or a vector [N]
  (a row [1, D] or a vector [D]) be plugged in alike.
-/
import Idealize.ShloMosaic.Lib.ValueIdx
import Idealize.ShloMosaic.PureOps.Ideal.Laws

noncomputable section

namespace Cert.GraphLayer

open Idealize.ShloMosaic Idealize.ShloMosaic.ValueIdx

variable {N D K : ℕ}

/-- The activation at node `r`, feature `k`: the positive part of neighbours + self loop + bias. -/
def act (A H : (⟨2, ![N, D]⟩ : Shape).Idx → EReal) (dq : Fin N → EReal) (b : Fin D → EReal) (r : Fin N) (k : Fin D) : EReal :=
  max ((A (ix2 r k) + H (ix2 r k) * dq r) + b k) (Ideal.ofBits .f32 0x00000000#32)

/-- The layer's output at `(r, q)`: the activations of node `r` against column `q` of the weights. -/
def proj (A H : (⟨2, ![N, D]⟩ : Shape).Idx → EReal) (dq : Fin N → EReal) (b : Fin D → EReal)
    (W : (⟨2, ![D, K]⟩ : Shape).Idx → EReal) (r : Fin N) (q : Fin K) : EReal :=
  ∑ k : Fin D, act A H dq b r k * W (ix2 k q)

end Cert.GraphLayer

end
-- ==== Proof.RefLayers.lean ====
/-
  The reference's three dense stages at an entry.

  The reference computes, on whole arrays: the first product features · W1; then, per layer, (aggregated messages +
  features · squared inverse square-root degree) + bias, its positive part, and the product with the next weights; and
  at the end the classifier's bias. The degree factor is a vector [N] broadcast to a column and then along the
  features, the biases are vectors broadcast to a row and then along the nodes. Read at (r, q), every broadcast
  collapses to one coordinate, and each stage is the same sum the layer specification names.
-/
import proofs.«147297_j32908039422339_2_alg».proof.Proof.RefRead
import proofs.«147297_j32908039422339_2_alg».proof.Proof.LayerSpec

noncomputable section

namespace Cert.ReferenceIdeal.Layers

open Cert.ReferenceIdeal Cert.ReferenceIdeal.ReadP Idealize.ShloMosaic Idealize.ShloMosaic.ValueIdx

/-! ## The composed index functions at an index given by coordinates -/

theorem lidx4 (r : Fin 100000) (q : Fin 128) (k : Fin 500) : lidx_main_v4 (ix2 r q) k = ix2 r k :=
  funext fun a => Fin.ext (by match a with | ⟨0, _⟩ => rfl | ⟨1, _⟩ => rfl)
theorem ridx4 (r : Fin 100000) (q : Fin 128) (k : Fin 500) : ridx_main_v4 (ix2 r q) k = ix2 k q :=
  funext fun a => Fin.ext (by match a with | ⟨0, _⟩ => rfl | ⟨1, _⟩ => rfl)
theorem lidx52 (r : Fin 100000) (q : Fin 64) (k : Fin 128) : lidx_main_v52 (ix2 r q) k = ix2 r k :=
  funext fun a => Fin.ext (by match a with | ⟨0, _⟩ => rfl | ⟨1, _⟩ => rfl)
theorem ridx52 (r : Fin 100000) (q : Fin 64) (k : Fin 128) : ridx_main_v52 (ix2 r q) k = ix2 k q :=
  funext fun a => Fin.ext (by match a with | ⟨0, _⟩ => rfl | ⟨1, _⟩ => rfl)
theorem lidx100 (r : Fin 100000) (q : Fin 10) (k : Fin 64) : lidx_main_v100 (ix2 r q) k = ix2 r k :=
  funext fun a => Fin.ext (by match a with | ⟨0, _⟩ => rfl | ⟨1, _⟩ => rfl)
theorem ridx100 (r : Fin 100000) (q : Fin 10) (k : Fin 64) : ridx_main_v100 (ix2 r q) k = ix2 k q :=
  funext fun a => Fin.ext (by match a with | ⟨0, _⟩ => rfl | ⟨1, _⟩ => rfl)
/-- The degree factor broadcast to [N, 1] and then to [N, 128] is read at the node. -/
theorem idx45 (r : Fin 100000) (k : Fin 128) : idx_main_v44 (idx_main_v45 (ix2 r k)) = ix1 r :=
  funext fun a => Fin.ext (by match a with | ⟨0, _⟩ => rfl)
/-- The bias broadcast to [1, 128] and then to [N, 128] is read at the feature. -/
theorem idx49 (r : Fin 100000) (k : Fin 128) : idx_main_v48 (idx_main_v49 (ix2 r k)) = ix1 k :=
  funext fun a => Fin.ext (by match a with | ⟨0, _⟩ => rfl)
theorem idx93 (r : Fin 100000) (k : Fin 64) : idx_main_v92 (idx_main_v93 (ix2 r k)) = ix1 r :=
  funext fun a => Fin.ext (by match a with | ⟨0, _⟩ => rfl)
theorem idx97 (r : Fin 100000) (k : Fin 64) : idx_main_v96 (idx_main_v97 (ix2 r k)) = ix1 k :=
  funext fun a => Fin.ext (by match a with | ⟨0, _⟩ => rfl)
theorem idx102 (r : Fin 100000) (q : Fin 10) : idx_main_v101 (idx_main_v102 (ix2 r q)) = ix1 q :=
  funext fun a => Fin.ext (by match a with | ⟨0, _⟩ => rfl)

/-! ## The stages -/

/-- The first product at `(r, q)`. -/
theorem first_apply (x0 : (⟨S100000x500, .f32⟩ : BufTy).Contents (Elt Ideal)) (x2 : (⟨S500x128, .f32⟩ : BufTy).Contents (Elt Ideal))
    (r : Fin 100000) (q : Fin 128) :
    val_main_v4 (F := Ideal) x0 x2 (ix2 r q) = ∑ k : Fin 500, x0 (ix2 r k) * x2 (ix2 k q) := by
  rw [val_main_v4_apply]
  refine Finset.sum_congr rfl fun k _ => ?_
  rw [lidx4, ridx4]

/-- Layer one's dense tail at `(r, q)`. -/
theorem layer1_apply (x0 : (⟨S100000x500, .f32⟩ : BufTy).Contents (Elt Ideal)) (x1 : (⟨S2x1600000, .i32⟩ : BufTy).Contents (Elt Ideal))
    (x2 : (⟨S500x128, .f32⟩ : BufTy).Contents (Elt Ideal)) (x3 : (⟨S128, .f32⟩ : BufTy).Contents (Elt Ideal))
    (x4 : (⟨S128x64, .f32⟩ : BufTy).Contents (Elt Ideal)) (r : Fin 100000) (q : Fin 64) :
    val_main_v52 (F := Ideal) x0 x1 x2 x3 x4 (ix2 r q)
      = Cert.GraphLayer.proj (val_main_v42 (F := Ideal) x0 x1 x2) (val_main_v4 (F := Ideal) x0 x2)
          (fun r => val_main_v43 (F := Ideal) x1 (ix1 r)) (fun k => x3 (ix1 k)) x4 r q := by
  rw [val_main_v52_apply]
  unfold Cert.GraphLayer.proj Cert.GraphLayer.act
  refine Finset.sum_congr rfl fun k _ => ?_
  rw [lidx52, ridx52, val_main_v51_apply, val_main_v50_apply, val_main_v47_apply, val_main_v46_apply, val_main_v45_apply,
    val_main_v44_apply, val_main_v49_apply, val_main_v48_apply, val_main_call1_v0_apply, val_main_call1_cst_apply, idx45, idx49]
  rfl

/-- Layer two's dense tail and the classifier's bias at `(r, q)`. -/
theorem layer2_apply (x0 : (⟨S100000x500, .f32⟩ : BufTy).Contents (Elt Ideal)) (x1 : (⟨S2x1600000, .i32⟩ : BufTy).Contents (Elt Ideal))
    (x2 : (⟨S500x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x10, .f32⟩ : BufTy).Contents (Elt Ideal)) (x7 : (⟨S10, .f32⟩ : BufTy).Contents (Elt Ideal)) (r : Fin 100000) (q : Fin 10) :
    val_main_v103 (F := Ideal) x0 x1 x2 x3 x4 x5 x6 x7 (ix2 r q)
      = Cert.GraphLayer.proj (val_main_v90 (F := Ideal) x0 x1 x2 x3 x4) (val_main_v52 (F := Ideal) x0 x1 x2 x3 x4)
          (fun r => val_main_v91 (F := Ideal) x1 (ix1 r)) (fun k => x5 (ix1 k)) x6 r q + x7 (ix1 q) := by
  rw [val_main_v103_apply, val_main_v102_apply, val_main_v101_apply, idx102, val_main_v100_apply]
  refine congrArg (· + x7 (ix1 q)) ?_
  unfold Cert.GraphLayer.proj Cert.GraphLayer.act
  refine Finset.sum_congr rfl fun k _ => ?_
  rw [lidx100, ridx100, val_main_v99_apply, val_main_v98_apply, val_main_v95_apply, val_main_v94_apply, val_main_v93_apply,
    val_main_v92_apply, val_main_v97_apply, val_main_v96_apply, val_main_call3_v0_apply, val_main_call3_cst_apply, idx93, idx97]
  rfl

end Cert.ReferenceIdeal.Layers

end
-- ==== Proof.Entry0.lean ====
/-
  What the first stretches of host operations leave in the buffers when the first stage is entered, named by the
  reference's own stages.

  Both programs start alike: the edge list's two rows are the sources and the targets; a node's degree is one plus the
  number of edges that target it; its inverse square root (zero where the degree is not positive) is the node's factor;
  an edge's weight is the product of its two endpoints' factors. The kernel's program then lays the squared node factor out
  as a column and the edge weights as a column by a reshape. Each of these buffers holds, operation for operation, the
  value of the reference's stage of the same meaning (the reshapes are kept as reshapes of the reference's vectors), and
  the eight arguments are untouched. Each stretch is read for an arbitrary valuation it starts from, and then at the
  valuation the previous stretch leaves.
-/
import proofs.«147297_j32908039422339_2_alg».proof.Proof.Gen.KernelIdeal.Frame
import proofs.«147297_j32908039422339_2_alg».proof.Proof.RefRead
import proofs.«147297_j32908039422339_2_alg».proof.Proof.LibTypedRef

set_option maxRecDepth 16384

noncomputable section

namespace Cert.KernelIdeal.Entry0

open Cert.KernelIdeal Cert.KernelIdeal.Gen Idealize.ShloMosaic Idealize.ShloMosaic.TcCoe Idealize.ShloMosaic.StableHlo
open Idealize.ShloMosaic.ValueIdx
open Idealize.SL Idealize.SL.Sem
open Cert.ReferenceIdeal.ReadP (val_main_v1 val_main_v3 val_main_v4 val_main_v14 val_main_v29 val_main_v37 val_main_v42 val_main_v43 val_main_v52 val_main_v62 val_main_v77 val_main_v85 val_main_v90 val_main_v91 val_main_v103)

variable (m : (ℓ : Loc nD τ sig) → Buf (Elt Ideal) ℓ) (ρ : Dev nD → PrngReg) (c : Dev nD)

/-- A buffer that no operation of a stretch of host operations writes keeps its contents through the stretch. -/
macro "kept_through" ops:ident : tactic =>
  `(tactic| exact StableHlo.after_of_forall_not_mem _ _ (List.forall_iff_forall_mem.mp (by
      simp only [$ops:ident, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The first stretch: sources, targets, and what the node factor is selected from -/

/-- The edges' sources after the first stretch. -/
theorem src1 : W1 m ρ c (Proc.devRef .tc main_v1) = val_main_v1 (F := Ideal) (m ((c : Thread nD τ).loc main_arg1)) := by
  show StableHlo.after hostOps0 (W0 m ρ c) (Proc.devRef .tc main_v1) = _
  after_results <;> rfl

/-- The edges' targets after the first stretch. -/
theorem dst1 : W1 m ρ c (Proc.devRef .tc main_v3) = val_main_v3 (F := Ideal) (m ((c : Thread nD τ).loc main_arg1)) := by
  show StableHlo.after hostOps0 (W0 m ρ c) (Proc.devRef .tc main_v3) = _
  after_results <;> rfl

/-- What the node factor is selected from: the test "the degree is positive", the degree's inverse square root, and the
    zero the factor takes elsewhere. -/
theorem pos1 : W1 m ρ c (Proc.devRef .tc main_v11) = Cert.ReferenceIdeal.ReadP.val_main_v12 (F := Ideal) (m ((c : Thread nD τ).loc main_arg1)) := by
  show StableHlo.after hostOps0 (W0 m ρ c) (Proc.devRef .tc main_v11) = _
  after_results_simp <;> rfl
theorem rsq1 : W1 m ρ c (Proc.devRef .tc main_v12) = Cert.ReferenceIdeal.ReadP.val_main_v13 (F := Ideal) (m ((c : Thread nD τ).loc main_arg1)) := by
  show StableHlo.after hostOps0 (W0 m ρ c) (Proc.devRef .tc main_v12) = _
  after_results_simp <;> rfl
theorem zero1 : W1 m ρ c (Proc.devRef .tc main_cst_3) = Cert.ReferenceIdeal.ReadP.val_main_cst_3 (F := Ideal) := by
  show StableHlo.after hostOps0 (W0 m ρ c) (Proc.devRef .tc main_cst_3) = _
  after_results_simp <;> rfl

/-! ## The second stretch (the selection): the node factor -/

/-- The selection, from what the stretch finds: the second operand where the first holds, the (splat) third elsewhere. -/
theorem dis_of (Wp : Valuation τ sig (Elt Ideal)) :
    StableHlo.after hostOps0_1 Wp (Proc.devRef .tc main_v13)
      = (select (Wp (Proc.devRef .tc main_v11)) (Wp (Proc.devRef .tc main_v12))
          (broadcastInDim S100000 ![] bcast_S_S100000 (id (Wp (Proc.devRef .tc main_cst_3)))) : FVec Ideal S100000 .f32) := by
  after_results
  simp only [TRef.ofBuf_toBuf, TRef.toBuf_ofBuf]
  rfl

/-- The node factor: the inverse square root of the degree where the degree is positive, zero elsewhere. -/
theorem dis2 : W2 m ρ c (Proc.devRef .tc main_v13) = val_main_v14 (F := Ideal) (m ((c : Thread nD τ).loc main_arg1)) := by
  refine (dis_of (W1 m ρ c)).trans ?_
  rw [pos1 m ρ c, rsq1 m ρ c, zero1 m ρ c]
  rfl

theorem src2 : W2 m ρ c (Proc.devRef .tc main_v1) = val_main_v1 (F := Ideal) (m ((c : Thread nD τ).loc main_arg1)) :=
  (show W2 m ρ c (Proc.devRef .tc main_v1) = W1 m ρ c (Proc.devRef .tc main_v1) by kept_through hostOps0_1).trans (src1 m ρ c)
theorem dst2 : W2 m ρ c (Proc.devRef .tc main_v3) = val_main_v3 (F := Ideal) (m ((c : Thread nD τ).loc main_arg1)) :=
  (show W2 m ρ c (Proc.devRef .tc main_v3) = W1 m ρ c (Proc.devRef .tc main_v3) by kept_through hostOps0_1).trans (dst1 m ρ c)

/-! ## The third stretch, from any valuation: the two columns -/

set_option maxHeartbeats 1600000 in
/-- The squared node factor laid out as a column, from the node factor the stretch finds. -/
theorem dcol_of (Wp : Valuation τ sig (Elt Ideal)) :
    StableHlo.after hostOps0_2 Wp (Proc.devRef .tc main_v15)
      = shapeCast S100000x1 (mulf (Wp (Proc.devRef .tc main_v13)) (Wp (Proc.devRef .tc main_v13)) : FVec Ideal S100000 .f32)
          shapeCasts_S100000_S100000x1 := by
  after_results_simp <;> rfl

set_option maxHeartbeats 1600000 in
/-- The edge weights laid out as a column, from the node factor, the sources and the targets the stretch finds: the
    factor gathered at each edge's source (an index below zero wrapped by the node count) times the factor gathered at
    its target. -/
theorem wcol_of (Wp : Valuation τ sig (Elt Ideal)) :
    StableHlo.after hostOps0_2 Wp (Proc.devRef .tc main_v31)
      = shapeCast S1600000x1
          (mulf
            (Host.gather gather_S100000_S1600000x1_S1600000_n_0_n_n_0_1_1 (Wp (Proc.devRef .tc main_v13))
              (broadcastInDim S1600000x1 ![0] bcast_S1600000_S1600000x1_0
                (select (cmpi .slt (Wp (Proc.devRef .tc main_v1)) (broadcastInDim S1600000 ![] bcast_S_S1600000 (constantI S_ 32 0#32)))
                  (addi (Wp (Proc.devRef .tc main_v1)) (broadcastInDim S1600000 ![] bcast_S_S1600000 (constantI S_ 32 100000#32)))
                  (Wp (Proc.devRef .tc main_v1)))))
            (Host.gather gather_S100000_S1600000x1_S1600000_n_0_n_n_0_1_1 (Wp (Proc.devRef .tc main_v13))
              (broadcastInDim S1600000x1 ![0] bcast_S1600000_S1600000x1_0
                (select (cmpi .slt (Wp (Proc.devRef .tc main_v3)) (broadcastInDim S1600000 ![] bcast_S_S1600000 (constantI S_ 32 0#32)))
                  (addi (Wp (Proc.devRef .tc main_v3)) (broadcastInDim S1600000 ![] bcast_S_S1600000 (constantI S_ 32 100000#32)))
                  (Wp (Proc.devRef .tc main_v3))))) : FVec Ideal S1600000 .f32)
          shapeCasts_S1600000_S1600000x1 := by
  after_results_simp <;> rfl

/-! ## At the first stage's entry -/

/-- The squared node factor, as a column: the reshape of the reference's vector of squared factors. -/
theorem dcol : W3 m ρ c (Proc.devRef .tc main_v15)
    = shapeCast S100000x1 (val_main_v43 (F := Ideal) (m ((c : Thread nD τ).loc main_arg1))) shapeCasts_S100000_S100000x1 := by
  refine (dcol_of (W2 m ρ c)).trans ?_
  rw [dis2 m ρ c]
  rfl

/-- The edge weights, as a column: the reshape of the reference's vector of edge weights. -/
theorem wcol : W3 m ρ c (Proc.devRef .tc main_v31)
    = shapeCast S1600000x1 (val_main_v29 (F := Ideal) (m ((c : Thread nD τ).loc main_arg1))) shapeCasts_S1600000_S1600000x1 := by
  refine (wcol_of (W2 m ρ c)).trans ?_
  rw [dis2 m ρ c, src2 m ρ c, dst2 m ρ c]
  rfl

theorem src : W3 m ρ c (Proc.devRef .tc main_v1) = val_main_v1 (F := Ideal) (m ((c : Thread nD τ).loc main_arg1)) :=
  (show W3 m ρ c (Proc.devRef .tc main_v1) = W2 m ρ c (Proc.devRef .tc main_v1) by kept_through hostOps0_2).trans (src2 m ρ c)
theorem dst : W3 m ρ c (Proc.devRef .tc main_v3) = val_main_v3 (F := Ideal) (m ((c : Thread nD τ).loc main_arg1)) :=
  (show W3 m ρ c (Proc.devRef .tc main_v3) = W2 m ρ c (Proc.devRef .tc main_v3) by kept_through hostOps0_2).trans (dst2 m ρ c)

/-! The arguments are as launched. -/
theorem arg0 : W3 m ρ c (Proc.devRef .tc main_arg0) = m ((c : Thread nD τ).loc main_arg0) :=
  calc W3 m ρ c (Proc.devRef .tc main_arg0)
    _ = W2 m ρ c (Proc.devRef .tc main_arg0) := by kept_through hostOps0_2
    _ = W1 m ρ c (Proc.devRef .tc main_arg0) := by kept_through hostOps0_1
    _ = W0 m ρ c (Proc.devRef .tc main_arg0) := by kept_through hostOps0
    _ = m ((c : Thread nD τ).loc main_arg0) := rfl
theorem arg2 : W3 m ρ c (Proc.devRef .tc main_arg2) = m ((c : Thread nD τ).loc main_arg2) :=
  calc W3 m ρ c (Proc.devRef .tc main_arg2)
    _ = W2 m ρ c (Proc.devRef .tc main_arg2) := by kept_through hostOps0_2
    _ = W1 m ρ c (Proc.devRef .tc main_arg2) := by kept_through hostOps0_1
    _ = W0 m ρ c (Proc.devRef .tc main_arg2) := by kept_through hostOps0
    _ = m ((c : Thread nD τ).loc main_arg2) := rfl
theorem arg3 : W3 m ρ c (Proc.devRef .tc main_arg3) = m ((c : Thread nD τ).loc main_arg3) :=
  calc W3 m ρ c (Proc.devRef .tc main_arg3)
    _ = W2 m ρ c (Proc.devRef .tc main_arg3) := by kept_through hostOps0_2
    _ = W1 m ρ c (Proc.devRef .tc main_arg3) := by kept_through hostOps0_1
    _ = W0 m ρ c (Proc.devRef .tc main_arg3) := by kept_through hostOps0
    _ = m ((c : Thread nD τ).loc main_arg3) := rfl
theorem arg4 : W3 m ρ c (Proc.devRef .tc main_arg4) = m ((c : Thread nD τ).loc main_arg4) :=
  calc W3 m ρ c (Proc.devRef .tc main_arg4)
    _ = W2 m ρ c (Proc.devRef .tc main_arg4) := by kept_through hostOps0_2
    _ = W1 m ρ c (Proc.devRef .tc main_arg4) := by kept_through hostOps0_1
    _ = W0 m ρ c (Proc.devRef .tc main_arg4) := by kept_through hostOps0
    _ = m ((c : Thread nD τ).loc main_arg4) := rfl
theorem arg5 : W3 m ρ c (Proc.devRef .tc main_arg5) = m ((c : Thread nD τ).loc main_arg5) :=
  calc W3 m ρ c (Proc.devRef .tc main_arg5)
    _ = W2 m ρ c (Proc.devRef .tc main_arg5) := by kept_through hostOps0_2
    _ = W1 m ρ c (Proc.devRef .tc main_arg5) := by kept_through hostOps0_1
    _ = W0 m ρ c (Proc.devRef .tc main_arg5) := by kept_through hostOps0
    _ = m ((c : Thread nD τ).loc main_arg5) := rfl
theorem arg6 : W3 m ρ c (Proc.devRef .tc main_arg6) = m ((c : Thread nD τ).loc main_arg6) :=
  calc W3 m ρ c (Proc.devRef .tc main_arg6)
    _ = W2 m ρ c (Proc.devRef .tc main_arg6) := by kept_through hostOps0_2
    _ = W1 m ρ c (Proc.devRef .tc main_arg6) := by kept_through hostOps0_1
    _ = W0 m ρ c (Proc.devRef .tc main_arg6) := by kept_through hostOps0
    _ = m ((c : Thread nD τ).loc main_arg6) := rfl
theorem arg7 : W3 m ρ c (Proc.devRef .tc main_arg7) = m ((c : Thread nD τ).loc main_arg7) :=
  calc W3 m ρ c (Proc.devRef .tc main_arg7)
    _ = W2 m ρ c (Proc.devRef .tc main_arg7) := by kept_through hostOps0_2
    _ = W1 m ρ c (Proc.devRef .tc main_arg7) := by kept_through hostOps0_1
    _ = W0 m ρ c (Proc.devRef .tc main_arg7) := by kept_through hostOps0
    _ = m ((c : Thread nD τ).loc main_arg7) := rfl

end Cert.KernelIdeal.Entry0

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Body0.lean ====
/-
  The first kernel's body at an entry: the block of 4000 rows of the node features [4000, 500] times the whole
  weight matrix [500, 128], accumulated into zero. Over the extended reals the casts to the narrower float format are
  the identity, so the entry (p, q) is the sum over k of the feature (p, k) times the weight (k, q).
-/
import proofs.«147297_j32908039422339_2_alg».proof.Proof.Gen.KernelIdeal.Skeleton
import proofs.«147297_j32908039422339_2_alg».proof.Proof.LibPlainDot
import Idealize.ShloMosaic.Lib.Pipeline.Value

noncomputable section

namespace Cert.KernelIdeal.Body0

open Cert.KernelIdeal Cert.KernelIdeal.Gen Idealize.ShloMosaic Idealize.ShloMosaic.ValueIdx

/-- The body's stored value at `(p, q)`: row `p` of the block against column `q` of the weights. -/
theorem pay_apply (x0 : Vec Ideal S4000x500 .f32) (x1 : Vec Ideal S500x128 .f32) (p : Fin 4000) (q : Fin 128) :
    k0_pay1 (F := Ideal) x0 x1 (ix2 p q) = ∑ k : Fin 500, x0 (ix2 p k) * x1 (ix2 k q) := by
  unfold k0_pay1
  exact Cert.PlainDot.matmul_zero_apply _ rfl none _ _ p q

end Cert.KernelIdeal.Body0

end
-- ==== Proof.Stage0.lean ====
/-
  The first stage's output array, whatever the buffers hold when the stage is entered.

  The stage runs over 25 grid points. Point t loads rows 4000·t … 4000·t + 3999 of the node features [100000, 500] and the
  whole weight matrix [500, 128], and writes back rows 4000·t … 4000·t + 3999 of the output [100000, 128]. So row r of
  the output is written by point r / 4000 from row r of the features: the output array is the product of the WHOLE
  arrays, entry by entry, and the 25 blocks cover every row.
-/
import proofs.«147297_j32908039422339_2_alg».proof.Proof.Gen.KernelIdeal.Frame
import proofs.«147297_j32908039422339_2_alg».proof.Proof.Body0
import Idealize.ShloMosaic.Lib.Pipeline.Value

set_option maxRecDepth 16384

noncomputable section

namespace Cert.KernelIdeal.Stage0

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of whole arrays: entry `(r, q)` is row `r` of the features against column `q` of the weights. -/
def whole (X : S100000x500.Idx → EReal) (W : S500x128.Idx → EReal) : S100000x128.Idx → EReal :=
  fun i => ∑ k : Fin 500, X (ix2 (i 0) k) * W (ix2 k (i 1))

theorem whole_apply (X : S100000x500.Idx → EReal) (W : S500x128.Idx → EReal) (r : Fin 100000) (q : Fin 128) :
    whole X W (ix2 r q) = ∑ k : Fin 500, X (ix2 r k) * W (ix2 k q) := rfl

/-- The index maps over the grid: the row-tiled inputs move with the output's row tile, the other inputs stay put, and the
    output's row tile at point `t` is tile `t`. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row of the arrays that row `p` of point `t`'s blocks is. -/
def row (t : Fin cfg0.N) (p : Fin 4000) : Fin 100000 :=
  ⟨t.val * 4000 + p.val, by have h : t.val < 25 := lt_of_lt_of_eq t.isLt N_0; have := p.isLt; omega⟩

/-- Where the blocks' elements sit in their arrays. -/
theorem emb0 (t : Fin cfg0.N) (p : Fin 4000) (k : Fin 500) : ((cfg0.win 0).blk t).view.emb (ix2 p k) = ix2 (row t p) k := by
  obtain ⟨e00, e01, e10, e11, e20, e21⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 500 + 1 * k.val = k.val; omega
theorem emb1 (t : Fin cfg0.N) (k : Fin 500) (q : Fin 128) : ((cfg0.win 1).blk t).view.emb (ix2 k q) = ix2 k q := by
  obtain ⟨e00, e01, e10, e11, e20, e21⟩ := idx_facts t
  funext a; apply Fin.ext
  match a with
  | ⟨0, _⟩ => show win0_1.index t (0 : Fin 2) * 500 + 1 * k.val = k.val; omega
  | ⟨1, _⟩ => show win0_1.index t (1 : Fin 2) * 128 + 1 * q.val = q.val; omega
theorem emb2 (t : Fin cfg0.N) (p : Fin 4000) (q : Fin 128) : ((cfg0.win 2).blk t).view.emb (ix2 p q) = ix2 (row t p) q := by
  obtain ⟨e00, e01, e10, e11, e20, e21⟩ := idx_facts t
  funext a; apply Fin.ext
  match a with
  | ⟨0, _⟩ => show win0_2.index t (0 : Fin 2) * 4000 + 1 * p.val = t.val * 4000 + p.val; omega
  | ⟨1, _⟩ => show win0_2.index t (1 : Fin 2) * 128 + 1 * q.val = q.val; omega

/-- The blocks read off their arrays as the stage finds them. -/
theorem read0 (c : Dev nD) (t : Fin cfg0.N) (p : Fin 4000) (k : Fin 500) : iblk0 V c 0 t (ix2 p k) = V c main_arg0 (ix2 (row t p) k) := by
  show V c main_arg0 (((cfg0.win 0).blk t).view.emb (ix2 p k)) = _
  rw [emb0]
theorem read1 (c : Dev nD) (t : Fin cfg0.N) (k : Fin 500) (q : Fin 128) : iblk0 V c 1 t (ix2 k q) = V c main_arg2 (ix2 k q) := by
  show V c main_arg2 (((cfg0.win 1).blk t).view.emb (ix2 k q)) = _
  rw [emb1]

/-- What point `t` writes back is block `t` of the whole-array function. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero hz]
  simp only [View.ld_unit_zero (S := S4000x500) hz, View.ld_unit_zero (S := S500x128) hz]
  funext j
  obtain ⟨p, q, rfl⟩ : ∃ (p : Fin 4000) (q : Fin 128), j = ix2 p q := ⟨j 0, j 1, eq_ix2 j⟩
  show k0_pay1 (iblk0 V c 0 t) (iblk0 V c 1 t) (ix2 p q)
    = whole (V c main_arg0) (V c main_arg2) (((cfg0.win 2).blk t).view.emb (ix2 p q))
  rw [emb2]
  refine (Body0.pay_apply _ _ p q).trans ?_
  show (∑ k : Fin 500, _) = ∑ k : Fin 500, _
  refine Finset.sum_congr rfl fun k _ => ?_
  rw [read0 V c t p k, read1 V c t k q]

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v32).slice (win0_2.rect t)).set ↔ _
  rw [View.set_slice_whole, Rect.mem_set_unit]
  exact Iff.rfl

/-- Every row is in the block of the point that is its row tile. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  have ht : t.val = (i 0).val / 4000 := rfl
  obtain ⟨e00, e01, e10, e11, e20, e21⟩ := idx_facts t
  refine ⟨t, flush0_2 t, ?_⟩
  rw [mem_blk]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-- The output array after the stage: the whole-array function of the arrays the stage was entered with. -/
theorem final (c : Dev nD) :
    (dat0 V c).arrAt 2 cfg0.N = whole (V c main_arg0) (V c main_arg2) :=
  (dat0 V c).arrAt_eq_of_cover 2 _ (fun t _ => flushed_eq V c t) (cover)

end Cert.KernelIdeal.Stage0

end
-- ==== Proof.LibColumnBroadcast.lean ====
/-
  Two spellings of "a vector as a column". A vector `[a]` reshaped to `[a, 1]` and the same vector broadcast into
  `[a, 1]` along its own axis (`broadcast_in_dim`, dims = [0]) are one array: at `(i, u)` both read the vector at
  `i`, the reshape because both indices have row-major position `i`, the broadcast because the result's axis 0 is the
  operand's only axis.
-/
import Idealize.ShloMosaic.Lib.Pipeline.Value
import Idealize.ShloMosaic.Lib.ValueIdx

namespace Cert.ColumnForms

open Idealize.ShloMosaic Idealize.ShloMosaic.ValueIdx

variable {α : Type}

/-- A vector broadcast into a column along its own axis reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The reshape of a vector to a column is its broadcast into the column. -/
theorem shapeCast_eq_broadcastInDim {a : ℕ} (x : (⟨1, ![a]⟩ : Shape).Idx → α)
    (hs : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hs = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_a_a1_apply]
  refine shapeCast_apply x hs _ _ ?_
  have hu : u.val = 0 := by omega
  rw [Shape.rowMajor_val_two, Shape.rowMajor_val_one]
  show i.val = i.val * 1 + u.val
  rw [hu, Nat.mul_one, Nat.add_zero]

end Cert.ColumnForms
-- ==== Proof.Entry1.lean ====
/-
  What the buffers hold when the second stage is entered, named by the reference's own stages.

  The first stage has left the product of the node features and the first weights: the reference's first
  `dot_general`, entry by entry. The stretch of host operations after it gathers that product's rows at the edges'
  sources, scales each gathered row by its edge's weight and adds it into its target's row: layer one's aggregated
  messages. Both programs do this with the same operations on the same values, so the chain is carried as ONE function of
  the features, the sources, the targets and the edge-weight column, never opened; the only difference is how the
  edge-weight vector became a column (a reshape here, a broadcast along its own axis in the reference), and those are one
  array. The stretch also lays the first bias out as a row.
-/
import proofs.«147297_j32908039422339_2_alg».proof.Proof.Gen.KernelIdeal.Frame
import proofs.«147297_j32908039422339_2_alg».proof.Proof.RefRead
import proofs.«147297_j32908039422339_2_alg».proof.Proof.LibTypedRef
import proofs.«147297_j32908039422339_2_alg».proof.Proof.RefLayers
import proofs.«147297_j32908039422339_2_alg».proof.Proof.Entry0
import proofs.«147297_j32908039422339_2_alg».proof.Proof.Stage0
import proofs.«147297_j32908039422339_2_alg».proof.Proof.LibColumnBroadcast

set_option maxRecDepth 16384

noncomputable section

namespace Cert.KernelIdeal.Entry1

open Cert.KernelIdeal Cert.KernelIdeal.Gen Idealize.ShloMosaic Idealize.ShloMosaic.TcCoe Idealize.ShloMosaic.StableHlo
open Idealize.ShloMosaic.ValueIdx
open Idealize.SL Idealize.SL.Sem
open Cert.ReferenceIdeal.ReadP (val_main_v1 val_main_v3 val_main_v4 val_main_v14 val_main_v29 val_main_v37 val_main_v42 val_main_v43 val_main_v52 val_main_v62 val_main_v77 val_main_v85 val_main_v90 val_main_v91 val_main_v103)

variable (m : (ℓ : Loc nD τ sig) → Buf (Elt Ideal) ℓ) (ρ : Dev nD → PrngReg) (c : Dev nD)

/-- A buffer that no operation of a stretch of host operations writes keeps its contents through the stretch. -/
macro "kept_through" ops:ident : tactic =>
  `(tactic| exact StableHlo.after_of_forall_not_mem _ _ (List.forall_iff_forall_mem.mp (by
      simp only [$ops:ident, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## After the first stage -/

/-- The first stage's output is the reference's first product. -/
theorem feat4 : W4 m ρ c (Proc.devRef .tc main_v32) = val_main_v4 (F := Ideal) (m ((c : Thread nD τ).loc main_arg0)) (m ((c : Thread nD τ).loc main_arg2)) := by
  refine (W4_arr m ρ c 2).trans ((Stage0.final (V3 m ρ) c).trans ?_)
  rw [show V3 m ρ c main_arg0 = _ from Entry0.arg0 m ρ c, show V3 m ρ c main_arg2 = _ from Entry0.arg2 m ρ c]
  funext i
  obtain ⟨r, q, rfl⟩ : ∃ (r : Fin 100000) (q : Fin 128), i = ix2 r q := ⟨i 0, i 1, eq_ix2 i⟩
  rw [Stage0.whole_apply, Cert.ReferenceIdeal.Layers.first_apply]

theorem src4 : W4 m ρ c (Proc.devRef .tc main_v1) = val_main_v1 (F := Ideal) (m ((c : Thread nD τ).loc main_arg1)) :=
  (W4_of_ne m ρ c main_v1 (by decide)).trans (Entry0.src m ρ c)
theorem dst4 : W4 m ρ c (Proc.devRef .tc main_v3) = val_main_v3 (F := Ideal) (m ((c : Thread nD τ).loc main_arg1)) :=
  (W4_of_ne m ρ c main_v3 (by decide)).trans (Entry0.dst m ρ c)
theorem dcol4 : W4 m ρ c (Proc.devRef .tc main_v15) = shapeCast S100000x1 (val_main_v43 (F := Ideal) (m ((c : Thread nD τ).loc main_arg1))) shapeCasts_S100000_S100000x1 :=
  (W4_of_ne m ρ c main_v15 (by decide)).trans (Entry0.dcol m ρ c)
theorem wcol4 : W4 m ρ c (Proc.devRef .tc main_v31) = shapeCast S1600000x1 (val_main_v29 (F := Ideal) (m ((c : Thread nD τ).loc main_arg1))) shapeCasts_S1600000_S1600000x1 :=
  (W4_of_ne m ρ c main_v31 (by decide)).trans (Entry0.wcol m ρ c)
theorem arg3_4 : W4 m ρ c (Proc.devRef .tc main_arg3) = (m ((c : Thread nD τ).loc main_arg3)) :=
  (W4_of_ne m ρ c main_arg3 (by decide)).trans (Entry0.arg3 m ρ c)
theorem arg4_4 : W4 m ρ c (Proc.devRef .tc main_arg4) = (m ((c : Thread nD τ).loc main_arg4)) :=
  (W4_of_ne m ρ c main_arg4 (by decide)).trans (Entry0.arg4 m ρ c)
theorem arg5_4 : W4 m ρ c (Proc.devRef .tc main_arg5) = (m ((c : Thread nD τ).loc main_arg5)) :=
  (W4_of_ne m ρ c main_arg5 (by decide)).trans (Entry0.arg5 m ρ c)
theorem arg6_4 : W4 m ρ c (Proc.devRef .tc main_arg6) = (m ((c : Thread nD τ).loc main_arg6)) :=
  (W4_of_ne m ρ c main_arg6 (by decide)).trans (Entry0.arg6 m ρ c)
theorem arg7_4 : W4 m ρ c (Proc.devRef .tc main_arg7) = (m ((c : Thread nD τ).loc main_arg7)) :=
  (W4_of_ne m ρ c main_arg7 (by decide)).trans (Entry0.arg7 m ρ c)

/-! ## The aggregation of layer one, as one function -/

/-- Layer one's aggregated messages from the features `h`, the edges' sources and targets and the edge-weight column
    `w`: rows of `h` gathered at the sources (an index below zero wrapped by the node count), each scaled by its
    edge's weight, added into a zero array at the targets. -/
def agg (h : FVec Ideal S100000x128 .f32) (src dst : (⟨S1600000, .i32⟩ : BufTy).Contents (Elt Ideal))
    (w : FVec Ideal S1600000x1 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1 w))

set_option maxHeartbeats 1600000 in
/-- The stretch computes it from what it finds in the features, sources, targets and edge-weight buffers. -/
theorem agg_of (Wp : Valuation τ sig (Elt Ideal)) :
    StableHlo.after hostOps1 Wp (Proc.devRef .tc main_v44)
      = agg (Wp (Proc.devRef .tc main_v32)) (Wp (Proc.devRef .tc main_v1)) (Wp (Proc.devRef .tc main_v3)) (Wp (Proc.devRef .tc main_v31)) := by
  after_results_simp <;> rfl

/-- The reference's aggregated messages of layer one are the same function of its own stages. -/
theorem ref_agg (x0 : (⟨S100000x500, .f32⟩ : BufTy).Contents (Elt Ideal)) (x1 : (⟨S2x1600000, .i32⟩ : BufTy).Contents (Elt Ideal))
    (x2 : (⟨S500x128, .f32⟩ : BufTy).Contents (Elt Ideal)) :
    val_main_v42 (F := Ideal) x0 x1 x2
      = agg (val_main_v4 (F := Ideal) x0 x2) (val_main_v1 (F := Ideal) x1) (val_main_v3 (F := Ideal) x1) (val_main_v37 (F := Ideal) x1) := rfl

/-- The bias laid out as a row, from what the stretch finds in the bias's buffer. -/
theorem brow_of (Wp : Valuation τ sig (Elt Ideal)) :
    StableHlo.after hostOps1 Wp (Proc.devRef .tc main_v45)
      = shapeCast S1x128 (Wp (Proc.devRef .tc main_arg3)) shapeCasts_S128_S1x128 := by
  after_results <;> rfl

/-! ## At the second stage's entry -/

/-- Layer one's aggregated messages are the reference's. -/
theorem agg5 : W5 m ρ c (Proc.devRef .tc main_v44) = val_main_v42 (F := Ideal) (m ((c : Thread nD τ).loc main_arg0)) (m ((c : Thread nD τ).loc main_arg1)) (m ((c : Thread nD τ).loc main_arg2)) := by
  refine (agg_of (W4 m ρ c)).trans ?_
  rw [feat4 m ρ c, src4 m ρ c, dst4 m ρ c, wcol4 m ρ c, ref_agg]
  refine congrArg (agg _ _ _) ?_
  exact Cert.ColumnForms.shapeCast_eq_broadcastInDim _ _ _

/-- The first bias as a row. -/
theorem brow5 : W5 m ρ c (Proc.devRef .tc main_v45) = shapeCast S1x128 (m ((c : Thread nD τ).loc main_arg3)) shapeCasts_S128_S1x128 := by
  refine (brow_of (W4 m ρ c)).trans ?_
  rw [arg3_4 m ρ c]

theorem feat5 : W5 m ρ c (Proc.devRef .tc main_v32) = val_main_v4 (F := Ideal) (m ((c : Thread nD τ).loc main_arg0)) (m ((c : Thread nD τ).loc main_arg2)) :=
  (show W5 m ρ c (Proc.devRef .tc main_v32) = W4 m ρ c (Proc.devRef .tc main_v32) by kept_through hostOps1).trans (feat4 m ρ c)
theorem dcol5 : W5 m ρ c (Proc.devRef .tc main_v15) = shapeCast S100000x1 (val_main_v43 (F := Ideal) (m ((c : Thread nD τ).loc main_arg1))) shapeCasts_S100000_S100000x1 :=
  (show W5 m ρ c (Proc.devRef .tc main_v15) = W4 m ρ c (Proc.devRef .tc main_v15) by kept_through hostOps1).trans (dcol4 m ρ c)
theorem wcol5 : W5 m ρ c (Proc.devRef .tc main_v31) = shapeCast S1600000x1 (val_main_v29 (F := Ideal) (m ((c : Thread nD τ).loc main_arg1))) shapeCasts_S1600000_S1600000x1 :=
  (show W5 m ρ c (Proc.devRef .tc main_v31) = W4 m ρ c (Proc.devRef .tc main_v31) by kept_through hostOps1).trans (wcol4 m ρ c)
theorem src5 : W5 m ρ c (Proc.devRef .tc main_v1) = val_main_v1 (F := Ideal) (m ((c : Thread nD τ).loc main_arg1)) :=
  (show W5 m ρ c (Proc.devRef .tc main_v1) = W4 m ρ c (Proc.devRef .tc main_v1) by kept_through hostOps1).trans (src4 m ρ c)
theorem dst5 : W5 m ρ c (Proc.devRef .tc main_v3) = val_main_v3 (F := Ideal) (m ((c : Thread nD τ).loc main_arg1)) :=
  (show W5 m ρ c (Proc.devRef .tc main_v3) = W4 m ρ c (Proc.devRef .tc main_v3) by kept_through hostOps1).trans (dst4 m ρ c)
theorem arg4_5 : W5 m ρ c (Proc.devRef .tc main_arg4) = (m ((c : Thread nD τ).loc main_arg4)) :=
  (show W5 m ρ c (Proc.devRef .tc main_arg4) = W4 m ρ c (Proc.devRef .tc main_arg4) by kept_through hostOps1).trans (arg4_4 m ρ c)
theorem arg5_5 : W5 m ρ c (Proc.devRef .tc main_arg5) = (m ((c : Thread nD τ).loc main_arg5)) :=
  (show W5 m ρ c (Proc.devRef .tc main_arg5) = W4 m ρ c (Proc.devRef .tc main_arg5) by kept_through hostOps1).trans (arg5_4 m ρ c)
theorem arg6_5 : W5 m ρ c (Proc.devRef .tc main_arg6) = (m ((c : Thread nD τ).loc main_arg6)) :=
  (show W5 m ρ c (Proc.devRef .tc main_arg6) = W4 m ρ c (Proc.devRef .tc main_arg6) by kept_through hostOps1).trans (arg6_4 m ρ c)
theorem arg7_5 : W5 m ρ c (Proc.devRef .tc main_arg7) = (m ((c : Thread nD τ).loc main_arg7)) :=
  (show W5 m ρ c (Proc.devRef .tc main_arg7) = W4 m ρ c (Proc.devRef .tc main_arg7) by kept_through hostOps1).trans (arg7_4 m ρ c)

end Cert.KernelIdeal.Entry1

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.Body1.lean ====
/-
  The second kernel's body at an entry. From the blocks it loads — aggregated messages and node features
  [2000, 128], the squared inverse square-root degrees as a column [2000, 1], the bias as a row [1, 128], the weights
  [128, 64] — it computes, at row p and column q, the layer's output: the sum over the 128 features k of the positive
  part of (messages + features · degree factor + bias) at (p, k), times the weight at (k, q). The column is broadcast
  along the features and the row along the nodes, the casts to the narrower float format are the identity over the
  extended reals, and the product into a zero accumulator is the plain sum.
-/
import proofs.«147297_j32908039422339_2_alg».proof.Proof.Gen.KernelIdeal.Skeleton
import proofs.«147297_j32908039422339_2_alg».proof.Proof.LayerSpec
import proofs.«147297_j32908039422339_2_alg».proof.Proof.LibPlainDot
import proofs.«147297_j32908039422339_2_alg».proof.Proof.LibColumn
import Idealize.ShloMosaic.Lib.Pipeline.Value
import Idealize.ShloMosaic.Lib.ValueLayout

noncomputable section

namespace Cert.KernelIdeal.Body1

open Cert.KernelIdeal Cert.KernelIdeal.Gen Idealize.ShloMosaic Idealize.ShloMosaic.ValueIdx

/-- The activation block the body feeds to the product, at `(p, k)`: the identity casts dropped, the degree column read at
    row `p`, the bias row read at column `k`. -/
theorem act_apply (x0 x1 : Vec Ideal S2000x128 .f32) (x2 : Vec Ideal S2000x1 .f32) (x3 : Vec Ideal S1x128 .f32) (p : Fin 2000) (k : Fin 128) :
    (maximumf (addf (addf (shapeCast S2000x128 x0 shapeCasts_S2000x128_S2000x128)
        (mulf (shapeCast S2000x128 x1 shapeCasts_S2000x128_S2000x128)
          (broadcastTo S2000x128 (shapeCast S2000x1 x2 shapeCasts_S2000x1_S2000x1) broadcasts_S2000x1_S2000x128)))
        (broadcastTo S2000x128 (shapeCast S1x128 x3 shapeCasts_S1x128_S1x128) broadcasts_S1x128_S2000x128))
      (broadcast S2000x128 (Scalar.ofBits (F := Ideal) .f32 0x00000000#32)) : FVec Ideal S2000x128 .f32) (ix2 p k)
      = Cert.GraphLayer.act x0 x1 (fun r => x2 (ix2 r 0)) (fun k => x3 (ix2 0 k)) p k := by
  rw [shapeCast_self, shapeCast_self, shapeCast_self, shapeCast_self]
  show max ((x0 (ix2 p k) + x1 (ix2 p k) * broadcastTo S2000x128 x2 broadcasts_S2000x1_S2000x128 (ix2 p k))
      + broadcastTo S2000x128 x3 broadcasts_S1x128_S2000x128 (ix2 p k)) (Ideal.ofBits .f32 0x00000000#32) = _
  rw [Cert.GraphConv.Column.broadcastTo_a1_ab_apply, broadcastTo_1b_ab_apply]
  rfl

/-- The body's stored value at `(p, q)` is the layer's output for row `p` of the block. -/
theorem pay_apply (x0 x1 : Vec Ideal S2000x128 .f32) (x2 : Vec Ideal S2000x1 .f32) (x3 : Vec Ideal S1x128 .f32)
    (x4 : Vec Ideal S128x64 .f32) (p : Fin 2000) (q : Fin 64) :
    k1_pay1 (F := Ideal) x0 x1 x2 x3 x4 (ix2 p q)
      = Cert.GraphLayer.proj x0 x1 (fun r => x2 (ix2 r 0)) (fun k => x3 (ix2 0 k)) x4 p q := by
  unfold k1_pay1
  refine (Cert.PlainDot.matmul_zero_apply _ rfl none _ _ p q).trans ?_
  unfold Cert.GraphLayer.proj
  refine Finset.sum_congr rfl fun k _ => ?_
  exact congrArg (· * x4 (ix2 k q)) (act_apply x0 x1 x2 x3 p k)

end Cert.KernelIdeal.Body1

end
-- ==== Proof.Stage1.lean ====
/-
  The second stage's output array, whatever the buffers hold when the stage is entered.

  The stage runs over 50 grid points. Point t loads rows 2000·t … 2000·t + 1999 of the aggregated messages, of the node
  features and of the degree column, and the whole bias row and weight matrix; it writes back rows 2000·t … 2000·t + 1999
  of the output [100000, 64]. So row r of the output is written by point r / 2000 from row r of the inputs: the output
  array is the layer's dense tail of the WHOLE input arrays, entry by entry, and the 50 blocks cover every row.
-/
import proofs.«147297_j32908039422339_2_alg».proof.Proof.Gen.KernelIdeal.Frame
import proofs.«147297_j32908039422339_2_alg».proof.Proof.Body1
import Idealize.ShloMosaic.Lib.Pipeline.Value

set_option maxRecDepth 16384

noncomputable section

namespace Cert.KernelIdeal.Stage1

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's dense tail of whole arrays: entry `(r, q)` from row `r` of the messages, the features and the degree
    column, the bias row and column `q` of the weights. -/
def whole (A H : S100000x128.Idx → EReal) (DQ : S100000x1.Idx → EReal) (B : S1x128.Idx → EReal) (W : S128x64.Idx → EReal) :
    S100000x64.Idx → EReal :=
  fun i => Cert.GraphLayer.proj A H (fun r => DQ (ix2 r 0)) (fun k => B (ix2 0 k)) W (i 0) (i 1)

theorem whole_apply (A H : S100000x128.Idx → EReal) (DQ : S100000x1.Idx → EReal) (B : S1x128.Idx → EReal) (W : S128x64.Idx → EReal)
    (r : Fin 100000) (q : Fin 64) :
    whole A H DQ B W (ix2 r q) = Cert.GraphLayer.proj A H (fun r => DQ (ix2 r 0)) (fun k => B (ix2 0 k)) W r q := rfl

/-- The index maps over the grid: the three row-tiled inputs move with the output's row tile, the bias and the weights
    stay put, and the output's row tile at point `t` is tile `t`. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row of the arrays that row `p` of point `t`'s blocks is. -/
def row (t : Fin cfg1.N) (p : Fin 2000) : Fin 100000 :=
  ⟨t.val * 2000 + p.val, by have h : t.val < 50 := lt_of_lt_of_eq t.isLt N_1; have := p.isLt; omega⟩

/-- Where the blocks' elements sit in their arrays. -/
theorem emb0 (t : Fin cfg1.N) (p : Fin 2000) (k : Fin 128) : ((cfg1.win 0).blk t).view.emb (ix2 p k) = ix2 (row t p) k := by
  obtain ⟨e00, e01, e10, e11, e20, e21, e30, e31, e40, e41, e50, e51⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega
theorem emb1 (t : Fin cfg1.N) (p : Fin 2000) (k : Fin 128) : ((cfg1.win 1).blk t).view.emb (ix2 p k) = ix2 (row t p) k := by
  obtain ⟨e00, e01, e10, e11, e20, e21, e30, e31, e40, e41, e50, e51⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega
theorem emb2 (t : Fin cfg1.N) (p : Fin 2000) : ((cfg1.win 2).blk t).view.emb (ix2 p (0 : Fin 1)) = ix2 (row t p) (0 : Fin 1) := by
  obtain ⟨e00, e01, e10, e11, e20, e21, e30, e31, e40, e41, e50, e51⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 1 + 1 * 0 = 0; omega
theorem emb3 (t : Fin cfg1.N) (k : Fin 128) : ((cfg1.win 3).blk t).view.emb (ix2 (0 : Fin 1) k) = ix2 (0 : Fin 1) k := by
  obtain ⟨e00, e01, e10, e11, e20, e21, e30, e31, e40, e41, e50, e51⟩ := idx_facts t
  funext a; apply Fin.ext
  match a with
  | ⟨0, _⟩ => show win1_3.index t (0 : Fin 2) * 1 + 1 * 0 = 0; omega
  | ⟨1, _⟩ => show win1_3.index t (1 : Fin 2) * 128 + 1 * k.val = k.val; omega
theorem emb4 (t : Fin cfg1.N) (k : Fin 128) (q : Fin 64) : ((cfg1.win 4).blk t).view.emb (ix2 k q) = ix2 k q := by
  obtain ⟨e00, e01, e10, e11, e20, e21, e30, e31, e40, e41, e50, e51⟩ := idx_facts t
  funext a; apply Fin.ext
  match a with
  | ⟨0, _⟩ => show win1_4.index t (0 : Fin 2) * 128 + 1 * k.val = k.val; omega
  | ⟨1, _⟩ => show win1_4.index t (1 : Fin 2) * 64 + 1 * q.val = q.val; omega
theorem emb5 (t : Fin cfg1.N) (p : Fin 2000) (q : Fin 64) : ((cfg1.win 5).blk t).view.emb (ix2 p q) = ix2 (row t p) q := by
  obtain ⟨e00, e01, e10, e11, e20, e21, e30, e31, e40, e41, e50, e51⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 64 + 1 * q.val = q.val; omega

/-- The blocks read off their arrays as the stage finds them. -/
theorem read0 (c : Dev nD) (t : Fin cfg1.N) (p : Fin 2000) (k : Fin 128) : iblk1 V c 0 t (ix2 p k) = V c main_v44 (ix2 (row t p) k) := by
  show V c main_v44 (((cfg1.win 0).blk t).view.emb (ix2 p k)) = _
  rw [emb0]
theorem read1 (c : Dev nD) (t : Fin cfg1.N) (p : Fin 2000) (k : Fin 128) : iblk1 V c 1 t (ix2 p k) = V c main_v32 (ix2 (row t p) k) := by
  show V c main_v32 (((cfg1.win 1).blk t).view.emb (ix2 p k)) = _
  rw [emb1]
theorem read2 (c : Dev nD) (t : Fin cfg1.N) (p : Fin 2000) : iblk1 V c 2 t (ix2 p (0 : Fin 1)) = V c main_v15 (ix2 (row t p) (0 : Fin 1)) := by
  show V c main_v15 (((cfg1.win 2).blk t).view.emb (ix2 p (0 : Fin 1))) = _
  rw [emb2]
theorem read3 (c : Dev nD) (t : Fin cfg1.N) (k : Fin 128) : iblk1 V c 3 t (ix2 (0 : Fin 1) k) = V c main_v45 (ix2 (0 : Fin 1) k) := by
  show V c main_v45 (((cfg1.win 3).blk t).view.emb (ix2 (0 : Fin 1) k)) = _
  rw [emb3]
theorem read4 (c : Dev nD) (t : Fin cfg1.N) (k : Fin 128) (q : Fin 64) : iblk1 V c 4 t (ix2 k q) = V c main_arg4 (ix2 k q) := by
  show V c main_arg4 (((cfg1.win 4).blk t).view.emb (ix2 k q)) = _
  rw [emb4]

/-- What point `t` writes back is block `t` of the dense tail of the whole arrays. -/
theorem flushed_eq (c : Dev nD) (t : Fin cfg1.N) :
    (dat1 V c).flushed 5 t = ((cfg1.win 5).blk t).view.read (Elt Ideal)
      (whole (V c main_v44) (V c main_v32) (V c main_v15) (V c main_v45) (V c main_arg4)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz,
    View.ld_unit_zero (S := S128x64) hz]
  funext j
  obtain ⟨p, q, rfl⟩ : ∃ (p : Fin 2000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = whole (V c main_v44) (V c main_v32) (V c main_v15) (V c main_v45) (V c main_arg4) (((cfg1.win 5).blk t).view.emb (ix2 p q))
  rw [emb5]
  refine (Body1.pay_apply _ _ _ _ _ p q).trans ?_
  show Cert.GraphLayer.proj _ _ _ _ _ p q = Cert.GraphLayer.proj _ _ _ _ _ (row t p) q
  unfold Cert.GraphLayer.proj Cert.GraphLayer.act
  refine Finset.sum_congr rfl fun k _ => ?_
  dsimp only
  rw [read0 V c t p k, read1 V c t p k, read2 V c t p, read3 V c t k, read4 V c t k q]

/-- An index of the output is in point `t`'s block iff each coordinate is in the block's range on its axis. -/
theorem mem_blk (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v46).slice (win1_5.rect t)).set ↔ _
  rw [View.set_slice_whole, Rect.mem_set_unit]
  exact Iff.rfl

/-- Every row is in the block of the point that is its row tile. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  have ht : t.val = (i 0).val / 2000 := rfl
  obtain ⟨e00, e01, e10, e11, e20, e21, e30, e31, e40, e41, e50, e51⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 64 ≤ (i 1).val ∧ (i 1).val < win1_5.index t (1 : Fin 2) * 64 + 64
    omega

/-- The output array after the stage: the dense tail of the arrays the stage was entered with. -/
theorem final (c : Dev nD) :
    (dat1 V c).arrAt 5 cfg1.N = whole (V c main_v44) (V c main_v32) (V c main_v15) (V c main_v45) (V c main_arg4) :=
  (dat1 V c).arrAt_eq_of_cover 5 _ (fun t _ => flushed_eq V c t) (cover)

end Cert.KernelIdeal.Stage1

end
-- ==== Proof.Entry2.lean ====
/-
  What the buffers hold when the third stage is entered, named by the reference's own stages.

  The second stage has left layer one's output: at (r, q) the sum over the features k of the positive part of
  (aggregated messages + features · squared node factor + bias) at (r, k) times the second weights at (k, q) — the
  reference's second `dot_general` of its own activations, entry by entry (the squared node factor read off a column
  here and off a vector there, the bias off a row here and off a vector there). The stretch of host operations after it
  aggregates layer two's messages with the same chain of operations as the reference, carried as one function, and lays
  the second bias and the classifier's bias out as rows. The reference computes the node factors and the edge weights a
  second time for layer two: the same operations on the same edge list, so the same arrays.
-/
import proofs.«147297_j32908039422339_2_alg».proof.Proof.Gen.KernelIdeal.Frame
import proofs.«147297_j32908039422339_2_alg».proof.Proof.RefRead
import proofs.«147297_j32908039422339_2_alg».proof.Proof.LibTypedRef
import proofs.«147297_j32908039422339_2_alg».proof.Proof.RefLayers
import proofs.«147297_j32908039422339_2_alg».proof.Proof.Entry1
import proofs.«147297_j32908039422339_2_alg».proof.Proof.Stage1
import proofs.«147297_j32908039422339_2_alg».proof.Proof.LibColumn
import proofs.«147297_j32908039422339_2_alg».proof.Proof.LibColumnBroadcast
import Idealize.ShloMosaic.Lib.ValueLayout

set_option maxRecDepth 16384

noncomputable section

namespace Cert.KernelIdeal.Entry2

open Cert.KernelIdeal Cert.KernelIdeal.Gen Idealize.ShloMosaic Idealize.ShloMosaic.TcCoe Idealize.ShloMosaic.StableHlo
open Idealize.ShloMosaic.ValueIdx
open Idealize.SL Idealize.SL.Sem
open Cert.ReferenceIdeal.ReadP (val_main_v1 val_main_v3 val_main_v4 val_main_v14 val_main_v29 val_main_v37 val_main_v42 val_main_v43 val_main_v52 val_main_v62 val_main_v77 val_main_v85 val_main_v90 val_main_v91 val_main_v103)

variable (m : (ℓ : Loc nD τ sig) → Buf (Elt Ideal) ℓ) (ρ : Dev nD → PrngReg) (c : Dev nD)

/-- A buffer that no operation of a stretch of host operations writes keeps its contents through the stretch. -/
macro "kept_through" ops:ident : tactic =>
  `(tactic| exact StableHlo.after_of_forall_not_mem _ _ (List.forall_iff_forall_mem.mp (by
      simp only [$ops:ident, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## After the second stage -/

/-- The second stage's output is the reference's layer-one output. -/
theorem feat6 : W6 m ρ c (Proc.devRef .tc main_v46) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 5).trans ((Stage1.final (V5 m ρ) c).trans ?_)
  rw [show V5 m ρ c main_v44 = _ from Entry1.agg5 m ρ c, show V5 m ρ c main_v32 = _ from Entry1.feat5 m ρ c,
    show V5 m ρ c main_v15 = _ from Entry1.dcol5 m ρ c, show V5 m ρ c main_v45 = _ from Entry1.brow5 m ρ c,
    show V5 m ρ c main_arg4 = _ from Entry1.arg4_5 m ρ c]
  funext i
  obtain ⟨r, q, rfl⟩ : ∃ (r : Fin 100000) (q : Fin 64), i = ix2 r q := ⟨i 0, i 1, eq_ix2 i⟩
  rw [Stage1.whole_apply, Cert.ReferenceIdeal.Layers.layer1_apply]
  simp only [Cert.GraphConv.Column.shapeCast_a_a1_apply, shapeCast_a_1a_apply]

/-- The squared node factor's column is an input of the second stage: unchanged by it. -/
theorem dcol6 : W6 m ρ c (Proc.devRef .tc main_v15) = shapeCast S100000x1 (val_main_v43 (F := Ideal) (m ((c : Thread nD τ).loc main_arg1))) shapeCasts_S100000_S100000x1 :=
  ((W6_arr m ρ c 2).trans (((dat1 (V5 m ρ) c).arrAt_in 2 rfl _).trans (A_eq1 (V5 m ρ) c 2))).trans (Entry1.dcol5 m ρ c)

theorem wcol6 : W6 m ρ c (Proc.devRef .tc main_v31) = shapeCast S1600000x1 (val_main_v29 (F := Ideal) (m ((c : Thread nD τ).loc main_arg1))) shapeCasts_S1600000_S1600000x1 :=
  (W6_of_ne m ρ c main_v31 (by decide)).trans (Entry1.wcol5 m ρ c)
theorem src6 : W6 m ρ c (Proc.devRef .tc main_v1) = val_main_v1 (F := Ideal) (m ((c : Thread nD τ).loc main_arg1)) :=
  (W6_of_ne m ρ c main_v1 (by decide)).trans (Entry1.src5 m ρ c)
theorem dst6 : W6 m ρ c (Proc.devRef .tc main_v3) = val_main_v3 (F := Ideal) (m ((c : Thread nD τ).loc main_arg1)) :=
  (W6_of_ne m ρ c main_v3 (by decide)).trans (Entry1.dst5 m ρ c)
theorem arg5_6 : W6 m ρ c (Proc.devRef .tc main_arg5) = (m ((c : Thread nD τ).loc main_arg5)) :=
  (W6_of_ne m ρ c main_arg5 (by decide)).trans (Entry1.arg5_5 m ρ c)
theorem arg6_6 : W6 m ρ c (Proc.devRef .tc main_arg6) = (m ((c : Thread nD τ).loc main_arg6)) :=
  (W6_of_ne m ρ c main_arg6 (by decide)).trans (Entry1.arg6_5 m ρ c)
theorem arg7_6 : W6 m ρ c (Proc.devRef .tc main_arg7) = (m ((c : Thread nD τ).loc main_arg7)) :=
  (W6_of_ne m ρ c main_arg7 (by decide)).trans (Entry1.arg7_5 m ρ c)

/-! ## The aggregation of layer two, as one function -/

/-- Layer two's aggregated messages from the features `h`, the edges' sources and targets and the edge-weight column. -/
def agg (h : FVec Ideal S100000x64 .f32) (src dst : (⟨S1600000, .i32⟩ : BufTy).Contents (Elt Ideal))
    (w : FVec Ideal S1600000x1 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1 w))

set_option maxHeartbeats 1600000 in
/-- The stretch computes it from what it finds in the features, sources, targets and edge-weight buffers. -/
theorem agg_of (Wp : Valuation τ sig (Elt Ideal)) :
    StableHlo.after hostOps2 Wp (Proc.devRef .tc main_v58)
      = agg (Wp (Proc.devRef .tc main_v46)) (Wp (Proc.devRef .tc main_v1)) (Wp (Proc.devRef .tc main_v3)) (Wp (Proc.devRef .tc main_v31)) := by
  after_results_simp <;> rfl

/-- The reference's aggregated messages of layer two are the same function of its own stages. -/
theorem ref_agg (x0 : (⟨S100000x500, .f32⟩ : BufTy).Contents (Elt Ideal)) (x1 : (⟨S2x1600000, .i32⟩ : BufTy).Contents (Elt Ideal))
    (x2 : (⟨S500x128, .f32⟩ : BufTy).Contents (Elt Ideal)) (x3 : (⟨S128, .f32⟩ : BufTy).Contents (Elt Ideal))
    (x4 : (⟨S128x64, .f32⟩ : BufTy).Contents (Elt Ideal)) :
    val_main_v90 (F := Ideal) x0 x1 x2 x3 x4
      = agg (val_main_v52 (F := Ideal) x0 x1 x2 x3 x4) (val_main_v1 (F := Ideal) x1) (val_main_v3 (F := Ideal) x1) (val_main_v85 (F := Ideal) x1) := rfl

/-- The node factor computed for layer two is the one computed for layer one: the same operations on the same edges. -/
theorem factor_again (x1 : (⟨S2x1600000, .i32⟩ : BufTy).Contents (Elt Ideal)) : val_main_v62 (F := Ideal) x1 = val_main_v14 (F := Ideal) x1 := rfl

/-- So are the squared node factors … -/
theorem sq_again (x1 : (⟨S2x1600000, .i32⟩ : BufTy).Contents (Elt Ideal)) : val_main_v91 (F := Ideal) x1 = val_main_v43 (F := Ideal) x1 := by
  unfold Cert.ReferenceIdeal.ReadP.val_main_v91 Cert.ReferenceIdeal.ReadP.val_main_v43
  rw [factor_again]

/-- … and the edge weights. -/
theorem weight_again (x1 : (⟨S2x1600000, .i32⟩ : BufTy).Contents (Elt Ideal)) : val_main_v77 (F := Ideal) x1 = val_main_v29 (F := Ideal) x1 := by
  unfold Cert.ReferenceIdeal.ReadP.val_main_v77 Cert.ReferenceIdeal.ReadP.val_main_v69 Cert.ReferenceIdeal.ReadP.val_main_v76
    Cert.ReferenceIdeal.ReadP.val_main_v29 Cert.ReferenceIdeal.ReadP.val_main_v21 Cert.ReferenceIdeal.ReadP.val_main_v28
  rw [factor_again]
  rfl

/-- A bias laid out as a row, from what the stretch finds in the bias's buffer. -/
theorem brow_of (Wp : Valuation τ sig (Elt Ideal)) :
    StableHlo.after hostOps2 Wp (Proc.devRef .tc main_v59)
      = shapeCast S1x64 (Wp (Proc.devRef .tc main_arg5)) shapeCasts_S64_S1x64 := by
  after_results <;> rfl
theorem crow_of (Wp : Valuation τ sig (Elt Ideal)) :
    StableHlo.after hostOps2 Wp (Proc.devRef .tc main_v60)
      = shapeCast S1x10 (Wp (Proc.devRef .tc main_arg7)) shapeCasts_S10_S1x10 := by
  after_results <;> rfl

/-! ## At the third stage's entry -/

/-- Layer two's aggregated messages are the reference's. -/
theorem agg7 : W7 m ρ c (Proc.devRef .tc main_v58) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (agg_of (W6 m ρ c)).trans ?_
  rw [feat6 m ρ c, src6 m ρ c, dst6 m ρ c, wcol6 m ρ c, ref_agg]
  refine congrArg (agg _ _ _) ?_
  unfold Cert.ReferenceIdeal.ReadP.val_main_v85
  rw [weight_again]
  exact Cert.ColumnForms.shapeCast_eq_broadcastInDim _ _ _

/-- The second bias and the classifier's bias as rows. -/
theorem brow7 : W7 m ρ c (Proc.devRef .tc main_v59) = shapeCast S1x64 (m ((c : Thread nD τ).loc main_arg5)) shapeCasts_S64_S1x64 := by
  refine (brow_of (W6 m ρ c)).trans ?_
  rw [arg5_6 m ρ c]
theorem crow7 : W7 m ρ c (Proc.devRef .tc main_v60) = shapeCast S1x10 (m ((c : Thread nD τ).loc main_arg7)) shapeCasts_S10_S1x10 := by
  refine (crow_of (W6 m ρ c)).trans ?_
  rw [arg7_6 m ρ c]

theorem feat7 : W7 m ρ c (Proc.devRef .tc main_v46) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (show W7 m ρ c (Proc.devRef .tc main_v46) = W6 m ρ c (Proc.devRef .tc main_v46) by kept_through hostOps2).trans (feat6 m ρ c)
theorem dcol7 : W7 m ρ c (Proc.devRef .tc main_v15) = shapeCast S100000x1 (val_main_v43 (F := Ideal) (m ((c : Thread nD τ).loc main_arg1))) shapeCasts_S100000_S100000x1 :=
  (show W7 m ρ c (Proc.devRef .tc main_v15) = W6 m ρ c (Proc.devRef .tc main_v15) by kept_through hostOps2).trans (dcol6 m ρ c)
theorem arg6_7 : W7 m ρ c (Proc.devRef .tc main_arg6) = (m ((c : Thread nD τ).loc main_arg6)) :=
  (show W7 m ρ c (Proc.devRef .tc main_arg6) = W6 m ρ c (Proc.devRef .tc main_arg6) by kept_through hostOps2).trans (arg6_6 m ρ c)

end Cert.KernelIdeal.Entry2

end
-- ==== Proof.Body2.lean ====
/-
  The third kernel's body at an entry. As in the second kernel, from the blocks it loads — aggregated messages
  and node features [2000, 64], the degree factors as a column [2000, 1], the bias as a row [1, 64], the classifier's
  weights [64, 10] and its bias as a row [1, 10] — it computes at (p, q) the sum over the 64 features k of the positive
  part of (messages + features · degree factor + bias) at (p, k) times the weight at (k, q), and adds the classifier's
  bias at column q (broadcast along the rows).
-/
import proofs.«147297_j32908039422339_2_alg».proof.Proof.Gen.KernelIdeal.Skeleton
import proofs.«147297_j32908039422339_2_alg».proof.Proof.LayerSpec
import proofs.«147297_j32908039422339_2_alg».proof.Proof.LibPlainDot
import proofs.«147297_j32908039422339_2_alg».proof.Proof.LibColumn
import Idealize.ShloMosaic.Lib.Pipeline.Value
import Idealize.ShloMosaic.Lib.ValueLayout

noncomputable section

namespace Cert.KernelIdeal.Body2

open Cert.KernelIdeal Cert.KernelIdeal.Gen Idealize.ShloMosaic Idealize.ShloMosaic.ValueIdx

/-- The activation block the body feeds to the product, at `(p, k)`: the identity casts dropped, the degree column read at
    row `p`, the bias row read at column `k`. -/
theorem act_apply (x0 x1 : Vec Ideal S2000x64 .f32) (x2 : Vec Ideal S2000x1 .f32) (x3 : Vec Ideal S1x64 .f32) (p : Fin 2000) (k : Fin 64) :
    (maximumf (addf (addf (shapeCast S2000x64 x0 shapeCasts_S2000x64_S2000x64)
        (mulf (shapeCast S2000x64 x1 shapeCasts_S2000x64_S2000x64)
          (broadcastTo S2000x64 (shapeCast S2000x1 x2 shapeCasts_S2000x1_S2000x1) broadcasts_S2000x1_S2000x64)))
        (broadcastTo S2000x64 (shapeCast S1x64 x3 shapeCasts_S1x64_S1x64) broadcasts_S1x64_S2000x64))
      (broadcast S2000x64 (Scalar.ofBits (F := Ideal) .f32 0x00000000#32)) : FVec Ideal S2000x64 .f32) (ix2 p k)
      = Cert.GraphLayer.act x0 x1 (fun r => x2 (ix2 r 0)) (fun k => x3 (ix2 0 k)) p k := by
  rw [shapeCast_self, shapeCast_self, shapeCast_self, shapeCast_self]
  show max ((x0 (ix2 p k) + x1 (ix2 p k) * broadcastTo S2000x64 x2 broadcasts_S2000x1_S2000x64 (ix2 p k))
      + broadcastTo S2000x64 x3 broadcasts_S1x64_S2000x64 (ix2 p k)) (Ideal.ofBits .f32 0x00000000#32) = _
  rw [Cert.GraphConv.Column.broadcastTo_a1_ab_apply, broadcastTo_1b_ab_apply]
  rfl

/-- The body's stored value at `(p, q)` is the layer's output for row `p` of the block, plus the second bias at column `q`. -/
theorem pay_apply (x0 x1 : Vec Ideal S2000x64 .f32) (x2 : Vec Ideal S2000x1 .f32) (x3 : Vec Ideal S1x64 .f32)
    (x4 : Vec Ideal S64x10 .f32) (x5 : Vec Ideal S1x10 .f32) (p : Fin 2000) (q : Fin 10) :
    k2_pay1 (F := Ideal) x0 x1 x2 x3 x4 x5 (ix2 p q)
      = Cert.GraphLayer.proj x0 x1 (fun r => x2 (ix2 r 0)) (fun k => x3 (ix2 0 k)) x4 p q + x5 (ix2 0 q) := by
  unfold k2_pay1
  show FloatOps.matmul dot_S2000x64_S64x10_S2000x10_1_0_0_1_n_n none _ _ (constant (F := Ideal) S2000x10 .f32 0x00000000#32) (ix2 p q)
      + broadcastTo S2000x10 (shapeCast S1x10 x5 shapeCasts_S1x10_S1x10) broadcasts_S1x10_S2000x10 (ix2 p q) = _
  rw [broadcastTo_1b_ab_apply, shapeCast_self x5]
  refine congrArg (· + x5 (ix2 0 q)) ?_
  refine (Cert.PlainDot.matmul_zero_apply _ rfl none _ _ p q).trans ?_
  unfold Cert.GraphLayer.proj
  refine Finset.sum_congr rfl fun k _ => ?_
  exact congrArg (· * x4 (ix2 k q)) (act_apply x0 x1 x2 x3 p k)

end Cert.KernelIdeal.Body2

end
-- ==== Proof.Stage2.lean ====
/-
  The third stage's output array, whatever the buffers hold when the stage is entered.

  The stage runs over 50 grid points. Point t loads rows 2000·t … 2000·t + 1999 of the aggregated messages, of the node
  features and of the degree column, and the whole bias row, classifier weights and classifier bias row; it writes back
  rows 2000·t … 2000·t + 1999 of the output [100000, 10]. So row r of the output is written by point r / 2000 from
  row r of the inputs: the output array is the layer's dense tail of the WHOLE input arrays plus the classifier's bias,
  entry by entry, and the 50 blocks cover every row.
-/
import proofs.«147297_j32908039422339_2_alg».proof.Proof.Gen.KernelIdeal.Frame
import proofs.«147297_j32908039422339_2_alg».proof.Proof.Body2
import Idealize.ShloMosaic.Lib.Pipeline.Value

set_option maxRecDepth 16384

noncomputable section

namespace Cert.KernelIdeal.Stage2

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's dense tail of whole arrays plus the classifier's bias: entry `(r, q)` from row `r` of the messages, the
    features and the degree column, the bias row, column `q` of the weights and of the classifier's bias row. -/
def whole (A H : S100000x64.Idx → EReal) (DQ : S100000x1.Idx → EReal) (B : S1x64.Idx → EReal) (W : S64x10.Idx → EReal)
    (BC : S1x10.Idx → EReal) : S100000x10.Idx → EReal :=
  fun i => Cert.GraphLayer.proj A H (fun r => DQ (ix2 r 0)) (fun k => B (ix2 0 k)) W (i 0) (i 1) + BC (ix2 0 (i 1))

theorem whole_apply (A H : S100000x64.Idx → EReal) (DQ : S100000x1.Idx → EReal) (B : S1x64.Idx → EReal) (W : S64x10.Idx → EReal)
    (BC : S1x10.Idx → EReal) (r : Fin 100000) (q : Fin 10) :
    whole A H DQ B W BC (ix2 r q)
      = Cert.GraphLayer.proj A H (fun r => DQ (ix2 r 0)) (fun k => B (ix2 0 k)) W r q + BC (ix2 0 q) := rfl

/-- The index maps over the grid: the row-tiled inputs move with the output's row tile, the other inputs stay put, and the
    output's row tile at point `t` is tile `t`. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The row of the arrays that row `p` of point `t`'s blocks is. -/
def row (t : Fin cfg2.N) (p : Fin 2000) : Fin 100000 :=
  ⟨t.val * 2000 + p.val, by have h : t.val < 50 := lt_of_lt_of_eq t.isLt N_2; have := p.isLt; omega⟩

/-- Where the blocks' elements sit in their arrays. -/
theorem emb0 (t : Fin cfg2.N) (p : Fin 2000) (k : Fin 64) : ((cfg2.win 0).blk t).view.emb (ix2 p k) = ix2 (row t p) k := by
  obtain ⟨e00, e01, e10, e11, e20, e21, e30, e31, e40, e41, e50, e51, e60, e61⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 64 + 1 * k.val = k.val; omega
theorem emb1 (t : Fin cfg2.N) (p : Fin 2000) (k : Fin 64) : ((cfg2.win 1).blk t).view.emb (ix2 p k) = ix2 (row t p) k := by
  obtain ⟨e00, e01, e10, e11, e20, e21, e30, e31, e40, e41, e50, e51, e60, e61⟩ := idx_facts t
  funext a; apply Fin.ext
  match a with
  | ⟨0, _⟩ => show win2_1.index t (0 : Fin 2) * 2000 + 1 * p.val = t.val * 2000 + p.val; omega
  | ⟨1, _⟩ => show win2_1.index t (1 : Fin 2) * 64 + 1 * k.val = k.val; omega
theorem emb2 (t : Fin cfg2.N) (p : Fin 2000)  : ((cfg2.win 2).blk t).view.emb (ix2 p (0 : Fin 1)) = ix2 (row t p) (0 : Fin 1) := by
  obtain ⟨e00, e01, e10, e11, e20, e21, e30, e31, e40, e41, e50, e51, e60, e61⟩ := idx_facts t
  funext a; apply Fin.ext
  match a with
  | ⟨0, _⟩ => show win2_2.index t (0 : Fin 2) * 2000 + 1 * p.val = t.val * 2000 + p.val; omega
  | ⟨1, _⟩ => show win2_2.index t (1 : Fin 2) * 1 + 1 * 0 = 0; omega
theorem emb3 (t : Fin cfg2.N)  (k : Fin 64) : ((cfg2.win 3).blk t).view.emb (ix2 (0 : Fin 1) k) = ix2 (0 : Fin 1) k := by
  obtain ⟨e00, e01, e10, e11, e20, e21, e30, e31, e40, e41, e50, e51, e60, e61⟩ := idx_facts t
  funext a; apply Fin.ext
  match a with
  | ⟨0, _⟩ => show win2_3.index t (0 : Fin 2) * 1 + 1 * 0 = 0; omega
  | ⟨1, _⟩ => show win2_3.index t (1 : Fin 2) * 64 + 1 * k.val = k.val; omega
theorem emb4 (t : Fin cfg2.N) (k : Fin 64) (q : Fin 10) : ((cfg2.win 4).blk t).view.emb (ix2 k q) = ix2 k q := by
  obtain ⟨e00, e01, e10, e11, e20, e21, e30, e31, e40, e41, e50, e51, e60, e61⟩ := idx_facts t
  funext a; apply Fin.ext
  match a with
  | ⟨0, _⟩ => show win2_4.index t (0 : Fin 2) * 64 + 1 * k.val = k.val; omega
  | ⟨1, _⟩ => show win2_4.index t (1 : Fin 2) * 10 + 1 * q.val = q.val; omega
theorem emb5 (t : Fin cfg2.N)  (q : Fin 10) : ((cfg2.win 5).blk t).view.emb (ix2 (0 : Fin 1) q) = ix2 (0 : Fin 1) q := by
  obtain ⟨e00, e01, e10, e11, e20, e21, e30, e31, e40, e41, e50, e51, e60, e61⟩ := idx_facts t
  funext a; apply Fin.ext
  match a with
  | ⟨0, _⟩ => show win2_5.index t (0 : Fin 2) * 1 + 1 * 0 = 0; omega
  | ⟨1, _⟩ => show win2_5.index t (1 : Fin 2) * 10 + 1 * q.val = q.val; omega
theorem emb6 (t : Fin cfg2.N) (p : Fin 2000) (q : Fin 10) : ((cfg2.win 6).blk t).view.emb (ix2 p q) = ix2 (row t p) q := by
  obtain ⟨e00, e01, e10, e11, e20, e21, e30, e31, e40, e41, e50, e51, e60, e61⟩ := idx_facts t
  funext a; apply Fin.ext
  match a with
  | ⟨0, _⟩ => show win2_6.index t (0 : Fin 2) * 2000 + 1 * p.val = t.val * 2000 + p.val; omega
  | ⟨1, _⟩ => show win2_6.index t (1 : Fin 2) * 10 + 1 * q.val = q.val; omega

/-- The blocks read off their arrays as the stage finds them. -/
theorem read0 (c : Dev nD) (t : Fin cfg2.N) (p : Fin 2000) (k : Fin 64) : iblk2 V c 0 t (ix2 p k) = V c main_v58 (ix2 (row t p) k) := by
  show V c main_v58 (((cfg2.win 0).blk t).view.emb (ix2 p k)) = _
  rw [emb0]
theorem read1 (c : Dev nD) (t : Fin cfg2.N) (p : Fin 2000) (k : Fin 64) : iblk2 V c 1 t (ix2 p k) = V c main_v46 (ix2 (row t p) k) := by
  show V c main_v46 (((cfg2.win 1).blk t).view.emb (ix2 p k)) = _
  rw [emb1]
theorem read2 (c : Dev nD) (t : Fin cfg2.N) (p : Fin 2000)  : iblk2 V c 2 t (ix2 p (0 : Fin 1)) = V c main_v15 (ix2 (row t p) (0 : Fin 1)) := by
  show V c main_v15 (((cfg2.win 2).blk t).view.emb (ix2 p (0 : Fin 1))) = _
  rw [emb2]
theorem read3 (c : Dev nD) (t : Fin cfg2.N)  (k : Fin 64) : iblk2 V c 3 t (ix2 (0 : Fin 1) k) = V c main_v59 (ix2 (0 : Fin 1) k) := by
  show V c main_v59 (((cfg2.win 3).blk t).view.emb (ix2 (0 : Fin 1) k)) = _
  rw [emb3]
theorem read4 (c : Dev nD) (t : Fin cfg2.N) (k : Fin 64) (q : Fin 10) : iblk2 V c 4 t (ix2 k q) = V c main_arg6 (ix2 k q) := by
  show V c main_arg6 (((cfg2.win 4).blk t).view.emb (ix2 k q)) = _
  rw [emb4]
theorem read5 (c : Dev nD) (t : Fin cfg2.N)  (q : Fin 10) : iblk2 V c 5 t (ix2 (0 : Fin 1) q) = V c main_v60 (ix2 (0 : Fin 1) q) := by
  show V c main_v60 (((cfg2.win 5).blk t).view.emb (ix2 (0 : Fin 1) q)) = _
  rw [emb5]

/-- What point `t` writes back is block `t` of the whole-array function. -/
theorem flushed_eq (c : Dev nD) (t : Fin cfg2.N) :
    (dat2 V c).flushed 6 t = ((cfg2.win 6).blk t).view.read (Elt Ideal) (whole (V c main_v58) (V c main_v46) (V c main_v15) (V c main_v59) (V c main_arg6) (V c main_v60)) := by
  show (cfg2.win 6).cut (grid2.coords t) ((dat2 V c).after 6 t) = _
  rw [after2_6]
  unfold out2_6
  rw [View.canon_unit_zero hz]
  simp only [View.ld_unit_zero (S := S2000x64) hz, View.ld_unit_zero (S := S2000x1) hz, View.ld_unit_zero (S := S1x64) hz, View.ld_unit_zero (S := S64x10) hz, View.ld_unit_zero (S := S1x10) hz]
  funext j
  obtain ⟨p, q, rfl⟩ : ∃ (p : Fin 2000) (q : Fin 10), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
    = whole (V c main_v58) (V c main_v46) (V c main_v15) (V c main_v59) (V c main_arg6) (V c main_v60) (((cfg2.win 6).blk t).view.emb (ix2 p q))
  rw [emb6]
  refine (Body2.pay_apply _ _ _ _ _ _ p q).trans ?_
  show Cert.GraphLayer.proj _ _ _ _ _ p q + _ = Cert.GraphLayer.proj _ _ _ _ _ (row t p) q + _
  rw [read5 V c t q]
  refine congrArg (· + V c main_v60 (ix2 (0 : Fin 1) q)) ?_
  unfold Cert.GraphLayer.proj Cert.GraphLayer.act
  refine Finset.sum_congr rfl fun k _ => ?_
  dsimp only
  rw [read0 V c t p k, read1 V c t p k, read2 V c t p, read3 V c t k, read4 V c t k q]

/-- An index of the output is in point `t`'s block iff each coordinate is in the block's range on its axis. -/
theorem mem_blk (t : Fin cfg2.N) (i : S100000x10.Idx) :
    i ∈ ((cfg2.win 6).blk t).view.set ↔ ∀ a : Fin 2, win2_6.index t a * S2000x10.size a ≤ (i a).val
      ∧ (i a).val < win2_6.index t a * S2000x10.size a + S2000x10.size a := by
  show i ∈ ((View.whole main_v61).slice (win2_6.rect t)).set ↔ _
  rw [View.set_slice_whole, Rect.mem_set_unit]
  exact Iff.rfl

/-- Every row is in the block of the point that is its row tile. -/
theorem cover (i : S100000x10.Idx) : ∃ t : Fin cfg2.N, (cfg2.win 6).flush t = true ∧ i ∈ ((cfg2.win 6).blk t).view.set := by
  have hi0 : (i 0).val < 100000 := (i 0).isLt
  have hi1 : (i 1).val < 10 := (i 1).isLt
  have hN : cfg2.N = 50 := N_2
  let t : Fin cfg2.N := ⟨(i 0).val / 2000, by rw [hN]; omega⟩
  have ht : t.val = (i 0).val / 2000 := rfl
  obtain ⟨e00, e01, e10, e11, e20, e21, e30, e31, e40, e41, e50, e51, e60, e61⟩ := idx_facts t
  refine ⟨t, flush2_6 t, ?_⟩
  rw [mem_blk]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 10 ≤ (i 1).val ∧ (i 1).val < win2_6.index t (1 : Fin 2) * 10 + 10
    omega

/-- The output array after the stage: the whole-array function of the arrays the stage was entered with. -/
theorem final (c : Dev nD) :
    (dat2 V c).arrAt 6 cfg2.N = whole (V c main_v58) (V c main_v46) (V c main_v15) (V c main_v59) (V c main_arg6) (V c main_v60) :=
  (dat2 V c).arrAt_eq_of_cover 6 _ (fun t _ => flushed_eq V c t) (cover)

end Cert.KernelIdeal.Stage2

end
-- ==== Proof.Result.lean ====
/-
  The kernel program's result is the reference's result.

  The third stage leaves, at (r, q), the sum over the features k of the positive part of (layer two's aggregated
  messages + layer one's output · squared node factor + second bias) at (r, k) times the classifier's weights at
  (k, q), plus the classifier's bias at q. Every array it read is the reference's stage of the same meaning (the module
  of the third stage's entry), so this is the reference's last stage, entry by entry.
-/
import proofs.«147297_j32908039422339_2_alg».proof.Proof.Gen.KernelIdeal.Frame
import proofs.«147297_j32908039422339_2_alg».proof.Proof.RefRead
import proofs.«147297_j32908039422339_2_alg».proof.Proof.LibTypedRef
import proofs.«147297_j32908039422339_2_alg».proof.Proof.RefLayers
import proofs.«147297_j32908039422339_2_alg».proof.Proof.Entry2
import proofs.«147297_j32908039422339_2_alg».proof.Proof.Stage2
import proofs.«147297_j32908039422339_2_alg».proof.Proof.LibColumn
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.ShloMosaic.StableHlo
open Idealize.ShloMosaic.ValueIdx
open Idealize.SL Idealize.SL.Sem
open Cert.ReferenceIdeal.ReadP (val_main_v1 val_main_v3 val_main_v4 val_main_v14 val_main_v29 val_main_v37 val_main_v42 val_main_v43 val_main_v52 val_main_v62 val_main_v77 val_main_v85 val_main_v90 val_main_v91 val_main_v103)

variable (m : (ℓ : Loc nD τ sig) → Buf (Elt Ideal) ℓ) (ρ : Dev nD → PrngReg) (c : Dev nD)

/-- A buffer that no operation of a stretch of host operations writes keeps its contents through the stretch. -/
macro "kept_through" ops:ident : tactic =>
  `(tactic| exact StableHlo.after_of_forall_not_mem _ _ (List.forall_iff_forall_mem.mp (by
      simp only [$ops:ident, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- The result buffer after the whole program holds the reference's result, as a function of the launch memory's
    arguments. -/
theorem out8 : W8 m ρ c (Proc.devRef .tc main_v61) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 6).trans ((Stage2.final (V7 m ρ) c).trans ?_)
  rw [show V7 m ρ c main_v58 = _ from Entry2.agg7 m ρ c, show V7 m ρ c main_v46 = _ from Entry2.feat7 m ρ c,
    show V7 m ρ c main_v15 = _ from Entry2.dcol7 m ρ c, show V7 m ρ c main_v59 = _ from Entry2.brow7 m ρ c,
    show V7 m ρ c main_arg6 = _ from Entry2.arg6_7 m ρ c, show V7 m ρ c main_v60 = _ from Entry2.crow7 m ρ c]
  funext i
  obtain ⟨r, q, rfl⟩ : ∃ (r : Fin 100000) (q : Fin 10), i = ix2 r q := ⟨i 0, i 1, eq_ix2 i⟩
  rw [Stage2.whole_apply, Cert.ReferenceIdeal.Layers.layer2_apply, Entry2.sq_again]
  simp only [Cert.GraphConv.Column.shapeCast_a_a1_apply, shapeCast_a_1a_apply]

end Cert.KernelIdeal.Result

end
-- ==== Proof.lean ====
/-
  A two-layer graph convolution network with a linear classifier, written as three tiled matrix-product stages with
  the message passing between them on the host, against the same network written with whole-array operations.

  Over the extended reals both compute, per layer, the positive part of (aggregated neighbour messages + the node's own
  features times its squared inverse square-root degree) + bias, times the next weight matrix, and at the end the
  classifier's bias. The tiled stages only split the rows: an output row depends on the same row of the inputs, and the
  row tiles cover every row. Changes of float format are the identity, a product accumulated into zero and a
  `dot_general` are the same finite sum, a reshape of a vector to a column or a row and its broadcast along a unit axis
  are the same array, and the degree and edge-weight chain the reference runs once per layer is one chain. No law used
  needs finiteness, so the precondition is never opened.

  The three frames: the two kernel programs' are the generated frames; the reference's is its run with the
  result dropped. The idealization rewrote nothing, so `preserves` is trivial. The value claim pairs the kernel program's
  run (its result buffer at the fold of its segments over the launch memory) with the reference's run, the two results
  equal by the module `Result`.
-/
import proofs.«147297_j32908039422339_2_alg».proof.Defs
import proofs.«147297_j32908039422339_2_alg».proof.Proof.Gen.Kernel
import proofs.«147297_j32908039422339_2_alg».proof.Proof.Gen.Kernel.Skeleton
import proofs.«147297_j32908039422339_2_alg».proof.Proof.Gen.Kernel.Launch
import proofs.«147297_j32908039422339_2_alg».proof.Proof.Gen.Kernel.Points
import proofs.«147297_j32908039422339_2_alg».proof.Proof.Gen.Kernel.Frame
import proofs.«147297_j32908039422339_2_alg».proof.Proof.Gen.KernelIdeal
import proofs.«147297_j32908039422339_2_alg».proof.Proof.Gen.KernelIdeal.Skeleton
import proofs.«147297_j32908039422339_2_alg».proof.Proof.Gen.KernelIdeal.Launch
import proofs.«147297_j32908039422339_2_alg».proof.Proof.Gen.KernelIdeal.Points
import proofs.«147297_j32908039422339_2_alg».proof.Proof.Gen.KernelIdeal.Frame
import proofs.«147297_j32908039422339_2_alg».proof.Proof.Gen.ReferenceIdeal
import proofs.«147297_j32908039422339_2_alg».proof.Proof.Gen.Pre_finite_inputs
import proofs.«147297_j32908039422339_2_alg».proof.Proof.RefRun
import proofs.«147297_j32908039422339_2_alg».proof.Proof.RefRead
import proofs.«147297_j32908039422339_2_alg».proof.Proof.KernelRun
import proofs.«147297_j32908039422339_2_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs run, from memories agreeing on the arguments, to the same result: the kernel program's result buffer
    holds the reference's last stage of its own arguments, and the arguments agree. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Gen.W8 m ρ c (Proc.devRef .tc Cert.KernelIdeal.main_v61), Cert.KernelIdeal.Whole.run (F := Ideal) m ρ, ?_⟩
  refine (θ_run Cert.ReferenceIdeal.defs _ _).mono (fun _ h c => ⟨(h c).1.trans ?_, (h c).2⟩) (Cert.ReferenceIdeal.ValueP.run (F := Ideal) m' ρ')
  obtain ⟨a0, a1, a2, a3, a4, a5, a6, a7⟩ := hagree c
  rw [Cert.ReferenceIdeal.ReadP.val_main_v103_eq, a0, a1, a2, a3, a4, a5, a6, a7]
  exact (Cert.KernelIdeal.Result.out8 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
